-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg7 : FVec F S128x128 .f32) (main_arg8 : FVec F S128x128 .f32) (main_arg9 : FVec F S128x128 .f32) (main_arg10 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x128 .f32) (main_arg1 : FVec F S262144x128 .f32) (main_arg2 : FVec F S262144x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S262144x128 : Shape := ⟨2, ![262144, 128]⟩
abbrev S128x128 : Shape := ⟨2, ![128, 128]⟩
abbrev S512x128 : Shape := ⟨2, ![512, 128]⟩
abbrev S128x512 : Shape := ⟨2, ![128, 512]⟩
abbrev S256x512 : Shape := ⟨2, ![256, 512]⟩
abbrev S2x262144x128 : Shape := ⟨3, ![2, 262144, 128]⟩
abbrev S2048x128 : Shape := ⟨2, ![2048, 128]⟩
abbrev S2x2048x128 : Shape := ⟨3, ![2, 2048, 128]⟩
abbrev S2048x256 : Shape := ⟨2, ![2048, 256]⟩
abbrev S2048x512 : Shape := ⟨2, ![2048, 512]⟩
abbrev S1x2048x128 : Shape := ⟨3, ![1, 2048, 128]⟩

abbrev nBuf : Space → Nat
  | .hbm => 19
  | .vmem => 9
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S512x128, .f32⟩
  | .hbm, ⟨12, _⟩ => ⟨S512x128, .f32⟩
  | .hbm, ⟨13, _⟩ => ⟨S128x512, .f32⟩
  | .hbm, ⟨14, _⟩ => ⟨S128x512, .bf16⟩
  | .hbm, ⟨15, _⟩ => ⟨S128x512, .f32⟩
  | .hbm, ⟨16, _⟩ => ⟨S128x512, .bf16⟩
  | .hbm, ⟨17, _⟩ => ⟨S256x512, .bf16⟩
  | .hbm, ⟨18, _⟩ => ⟨S2x262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x512, .bf16⟩
  | .local _ .vmem, ⟨7, _⟩ => ⟨S2x2048x128, .f32⟩
  | .local _ .vmem, ⟨8, _⟩ => ⟨S2x2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S128x128_S128x128_S128x128_S128x128_S512x128_d0 : Shape.Concatenates [S128x128, S128x128, S128x128, S128x128] S512x128 0
  transposes_S512x128_S128x512_1_0 : S512x128.Transposes [1, 0] S128x512
  bitsLt_bf16_f32 : FTy.bits .bf16 < FTy.bits .f32
  concatenates_S128x512_S128x512_S256x512_d0 : Shape.Concatenates [S128x512, S128x512] S256x512 0
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S2x2048x128_S1x2048x128_1_0_0 : ∀ a, (![1, 0, 0] : Fin 3 → Nat) a + S1x2048x128.size a ≤ S2x2048x128.size a
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x2048x128.size a ≤ S2x262144x128.size a
  hwx0_4 : ∀ i : grid0.Coords, EltTy.bits .f32 = 32 ∨ (Rect.block (s := S2x262144x128) S2x2048x128.size (cc0_transform_4 i) (hinb0_4 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S512x128 : Shape := ⟨2, ![512, 128]⟩
abbrev S128x512 : Shape := ⟨2, ![128, 512]⟩
abbrev S262144x512 : Shape := ⟨2, ![262144, 512]⟩
abbrev S_ : Shape := ⟨0, ![]⟩
abbrev S1x262144x128 : Shape := ⟨3, ![1, 262144, 128]⟩
abbrev S2x262144x128 : Shape := ⟨3, ![2, 262144, 128]⟩

abbrev nBuf : Space → Nat
  | .hbm => 55
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S512x128, .f32⟩
  | .hbm, ⟨12, _⟩ => ⟨S512x128, .f32⟩
  | .hbm, ⟨13, _⟩ => ⟨S128x512, .f32⟩
  | .hbm, ⟨14, _⟩ => ⟨S262144x512, .f32⟩
  | .hbm, ⟨15, _⟩ => ⟨S128x512, .f32⟩
  | .hbm, ⟨16, _⟩ => ⟨S262144x512, .f32⟩
  | .hbm, ⟨17, _⟩ => ⟨S262144x512, .f32⟩
  | .hbm, ⟨18, _⟩ => ⟨S262144x128, .f32⟩
  | .hbm, ⟨19, _⟩ => ⟨S262144x128, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S_, .f32⟩
  | .hbm, ⟨33, _⟩ => ⟨S262144x128, .f32⟩
  | .hbm, ⟨34, _⟩ => ⟨S262144x128, .f32⟩
  | .hbm, ⟨35, _⟩ => ⟨S_, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S1x262144x128, .f32⟩
  | .hbm, ⟨53, _⟩ => ⟨S1x262144x128, .f32⟩
  | .hbm, ⟨54, _⟩ => ⟨S2x262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  concatenates_S128x128_S128x128_S128x128_S128x128_S512x128_d0 : Shape.Concatenates [S128x128, S128x128, S128x128, S128x128] S512x128 0
  transposes_S512x128_S128x512_1_0 : S512x128.Transposes [1, 0] S128x512
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  bcast_S262144x128_S1x262144x128_1_2 : S262144x128.BroadcastsInDim S1x262144x128 (![1, 2] : Fin 2 → Fin S1x262144x128.rank)
  concatenates_S1x262144x128_S1x262144x128_S2x262144x128_d0 : Shape.Concatenates [S1x262144x128, S1x262144x128] S2x262144x128 0
  dot_S262144x128_S128x512_S262144x512_1_0_0_1_n_n_wf : DotDims.WF S262144x128 S128x512 S262144x512 [1] [0] [0] [1] [] []

variable [Facts₀]

def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf

class Facts : Prop extends Facts₀ where

variable [Facts]
-- ==== Proof.LaunchBits.lean ====
/-
  The launch of the LSTM kernel: @main's seven host operations (two four-way stackings of the gate weights, their
  transposes, their narrowing, the stacking of the two results) then ONE pipelined region of 128 grid points.

  At grid point `t` the region hands the body rows `2048·t … 2048·t + 2047` of the input, the hidden state and the
  cell state (windows 0, 1, 2), the whole `[256, 512]` weight matrix (window 3, fetched once and kept), and a
  `[2, 2048, 128]` buffer (window 4) that it writes back as rows `2048·t …` of both planes of the result.  The body
  loads the four inputs whole, computes, and stores plane 0 and then plane 1 of the output buffer; the two stores
  tile the buffer, so whatever it held before is gone and its contents are a function `outBlock` of the four input
  blocks alone.  From this: every weakly fair execution of @main terminates without a fault, every array a window
  stages ends at what the proof data computes (`run_main`), every other buffer is as the region found it, and no host
  operation writes an argument — so the eleven argument arrays end as launched (`frame`).  Stated at any float
  instance `F`: nothing here looks inside the arithmetic.
-/
import proofs.«159457_j13056700580135_2_alg».proof.Proof.Gen.Kernel.Launch
import proofs.«159457_j13056700580135_2_alg».proof.Proof.Gen.Kernel.Skeleton
import proofs.«159457_j13056700580135_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is not
    fetched its block index has not moved), for any proof data whose array is the region-entry one and whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A staged argument ends at its array's final contents, which for an input are its entry contents; an argument
    no window stages ends as the region found it; and the region found every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- A row block `[2048, 128]`, whole. -/
abbrev rRows : Rect S2048x128 := Rect.unit (s := S2048x128) ![0, 0] S2048x128.size Gen.inb_S2048x128_S2048x128_0_0
/-- The weight matrix `[256, 512]`, whole. -/
abbrev rWts : Rect S256x512 := Rect.unit (s := S256x512) ![0, 0] S256x512.size Gen.inb_S256x512_S256x512_0_0
/-- Plane 0 of the output buffer. -/
abbrev rPlane0 : Rect S2x2048x128 := Rect.unit (s := S2x2048x128) ![0, 0, 0] S1x2048x128.size Gen.inb_S2x2048x128_S1x2048x128_0_0_0
/-- Plane 1 of the output buffer. -/
abbrev rPlane1 : Rect S2x2048x128 := Rect.unit (s := S2x2048x128) ![1, 0, 0] S1x2048x128.size Gen.inb_S2x2048x128_S1x2048x128_1_0_0

/-! ## What the body leaves in the output buffer -/

/-- The output buffer after the body, from the four input blocks: its two stores as pieces, the last first — plane 1
    the new cell state, plane 0 the new hidden state. -/
def outBlock (x0 x1 x2 : Vec F S2048x128 .f32) (x3 : Vec F S256x512 .bf16) : Vec F S2x2048x128 .f32 :=
  View.canon [⟨rPlane1, k0_pay2 (k0_pay4 (View.ld x0 rRows) (View.ld x1 rRows) (View.ld x3 rWts) (View.ld x2 rRows))⟩,
    ⟨rPlane0, k0_pay1 (k0_pay5 (View.ld x0 rRows) (View.ld x1 rRows) (View.ld x3 rWts) (View.ld x2 rRows))⟩]

/-- The two planes tile the buffer, so they cover it. -/
theorem cover_planes (p0 p1 : Vec F S1x2048x128 .f32) (y : S2x2048x128.Idx) :
    ∃ pc ∈ ([⟨rPlane1, p0⟩, ⟨rPlane0, p1⟩] : List (View.Piece (Elt F) S2x2048x128 .f32)), y ∈ pc.1.set :=
  View.cover_of_tiled [⟨rPlane1, p0⟩, ⟨rPlane0, p1⟩] S1x2048x128.size (by rfl) y

/-! ## The body's triple -/

set_option maxHeartbeats 1000000 in
/-- The body on whole staging buffers, the inputs' at contents `x0 … x3` and the output's at anything, runs to the
    continuation holding the inputs' as they were and the output's at `outBlock` of them. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S256x512 .bf16) (harg4 : arg4.IsWhole) (arg5 : Memref sig .tc .vmem S2x2048x128 .f32) (harg5 : arg5.IsWhole)
    (x0 x1 x2 : Vec F S2048x128 .f32) (x3 : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_planes _ _)

/-! ## The pipeline's proof data -/

/-- The proof data of the pipeline on core `c`: the arrays as the region finds them; after the body at point `t`
    each input's buffer at its block and the output's at `outBlock` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the eleven argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frm

end
-- ==== Proof.LaunchIdeal.lean ====
/-
  The launch of the LSTM kernel: @main's seven host operations (two four-way stackings of the gate weights, their
  transposes, their narrowing, the stacking of the two results) then ONE pipelined region of 128 grid points.

  At grid point `t` the region hands the body rows `2048·t … 2048·t + 2047` of the input, the hidden state and the
  cell state (windows 0, 1, 2), the whole `[256, 512]` weight matrix (window 3, fetched once and kept), and a
  `[2, 2048, 128]` buffer (window 4) that it writes back as rows `2048·t …` of both planes of the result.  The body
  loads the four inputs whole, computes, and stores plane 0 and then plane 1 of the output buffer; the two stores
  tile the buffer, so whatever it held before is gone and its contents are a function `outBlock` of the four input
  blocks alone.  From this: every weakly fair execution of @main terminates without a fault, every array a window
  stages ends at what the proof data computes (`run_main`), every other buffer is as the region found it, and no host
  operation writes an argument — so the eleven argument arrays end as launched (`frame`).  Stated at any float
  instance `F`: nothing here looks inside the arithmetic.
-/
import proofs.«159457_j13056700580135_2_alg».proof.Proof.Gen.KernelIdeal.Launch
import proofs.«159457_j13056700580135_2_alg».proof.Proof.Gen.KernelIdeal.Skeleton
import proofs.«159457_j13056700580135_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is not
    fetched its block index has not moved), for any proof data whose array is the region-entry one and whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A staged argument ends at its array's final contents, which for an input are its entry contents; an argument
    no window stages ends as the region found it; and the region found every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- A row block `[2048, 128]`, whole. -/
abbrev rRows : Rect S2048x128 := Rect.unit (s := S2048x128) ![0, 0] S2048x128.size Gen.inb_S2048x128_S2048x128_0_0
/-- The weight matrix `[256, 512]`, whole. -/
abbrev rWts : Rect S256x512 := Rect.unit (s := S256x512) ![0, 0] S256x512.size Gen.inb_S256x512_S256x512_0_0
/-- Plane 0 of the output buffer. -/
abbrev rPlane0 : Rect S2x2048x128 := Rect.unit (s := S2x2048x128) ![0, 0, 0] S1x2048x128.size Gen.inb_S2x2048x128_S1x2048x128_0_0_0
/-- Plane 1 of the output buffer. -/
abbrev rPlane1 : Rect S2x2048x128 := Rect.unit (s := S2x2048x128) ![1, 0, 0] S1x2048x128.size Gen.inb_S2x2048x128_S1x2048x128_1_0_0

/-! ## What the body leaves in the output buffer -/

/-- The output buffer after the body, from the four input blocks: its two stores as pieces, the last first — plane 1
    the new cell state, plane 0 the new hidden state. -/
def outBlock (x0 x1 x2 : Vec F S2048x128 .f32) (x3 : Vec F S256x512 .bf16) : Vec F S2x2048x128 .f32 :=
  View.canon [⟨rPlane1, k0_pay2 (k0_pay4 (View.ld x0 rRows) (View.ld x1 rRows) (View.ld x3 rWts) (View.ld x2 rRows))⟩,
    ⟨rPlane0, k0_pay1 (k0_pay5 (View.ld x0 rRows) (View.ld x1 rRows) (View.ld x3 rWts) (View.ld x2 rRows))⟩]

/-- The two planes tile the buffer, so they cover it. -/
theorem cover_planes (p0 p1 : Vec F S1x2048x128 .f32) (y : S2x2048x128.Idx) :
    ∃ pc ∈ ([⟨rPlane1, p0⟩, ⟨rPlane0, p1⟩] : List (View.Piece (Elt F) S2x2048x128 .f32)), y ∈ pc.1.set :=
  View.cover_of_tiled [⟨rPlane1, p0⟩, ⟨rPlane0, p1⟩] S1x2048x128.size (by rfl) y

/-! ## The body's triple -/

set_option maxHeartbeats 1000000 in
/-- The body on whole staging buffers, the inputs' at contents `x0 … x3` and the output's at anything, runs to the
    continuation holding the inputs' as they were and the output's at `outBlock` of them. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S256x512 .bf16) (harg4 : arg4.IsWhole) (arg5 : Memref sig .tc .vmem S2x2048x128 .f32) (harg5 : arg5.IsWhole)
    (x0 x1 x2 : Vec F S2048x128 .f32) (x3 : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_planes _ _)

/-! ## The pipeline's proof data -/

/-- The proof data of the pipeline on core `c`: the arrays as the region finds them; after the body at point `t`
    each input's buffer at its block and the output's at `outBlock` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the eleven argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frm

end
-- ==== Proof.Spec.lean ====
/-
  The LSTM cell as ONE function of its arrays, on the extended reals.

  For a batch of `R` rows: `x`, `h`, `c` are the input, the previous hidden state and the previous cell
  state, each `[R, 128]`; `wx`, `wh` are the two weight stacks already transposed, each `[128, 512]`, whose
  512 columns are the four gates' columns side by side (input gate 0–127, forget gate 128–255, output gate
  256–383, candidate 384–511).  Row `r`, column `n` of the pre-activations is
      pre r n = ∑ₖ x[r,k]·wx[k,n] + ∑ₖ h[r,k]·wh[k,n],
  the new cell state is  σ(pre r (128+j))·c[r,j] + σ(pre r j)·tanh(pre r (384+j)),
  the new hidden state is σ(pre r (256+j))·tanh(new cell state),  σ(v) = 1/(1+e^{-v}),
  and the result stacks the hidden state (plane 0) on the cell state (plane 1).
-/
import Idealize.ShloMosaic.PureOps.Ideal
import Idealize.ShloMosaic.Lib.ValueIdx

noncomputable section

namespace Cert.Lstm

open Idealize.ShloMosaic Idealize.ShloMosaic.ValueIdx

/-- `[R, 128]`: a batch of rows. -/
abbrev Rows (R : Nat) : Shape := ⟨2, ![R, 128]⟩
/-- `[128, 512]`: four gate matrices, transposed, side by side. -/
abbrev Wts : Shape := ⟨2, ![128, 512]⟩
/-- `[2, R, 128]`: the hidden state stacked on the cell state. -/
abbrev Planes (R : Nat) : Shape := ⟨3, ![2, R, 128]⟩

/-- The float `1.0`. -/
abbrev one : EReal := Ideal.ofBits .f32 0x3F800000#32
/-- The float `0.5`. -/
abbrev half : EReal := Ideal.ofBits .f32 0x3F000000#32

/-- The logistic function in the form `1 / (1 + e^{-v})`. -/
def logistic (v : EReal) : EReal := Ideal.div one (one + Ideal.exp (-v))

/-- Column `o + j` of the 512 gate columns. -/
abbrev col (o : Nat) (j : Fin 128) (ho : o + 128 ≤ 512 := by decide) : Fin 512 := ⟨o + j.val, by omega⟩

variable {R : Nat}

/-- Row `r`, column `n` of the gates' pre-activations: `x·wx + h·wh`. -/
def pre (x h : (Rows R).Idx → EReal) (wx wh : Wts.Idx → EReal) (r : Fin R) (n : Fin 512) : EReal :=
  (∑ k : Fin 128, x (ix2 r k) * wx (ix2 k n)) + ∑ k : Fin 128, h (ix2 r k) * wh (ix2 k n)

/-- The new cell state: forget gate times the old state plus input gate times the candidate. -/
def cell (x h c : (Rows R).Idx → EReal) (wx wh : Wts.Idx → EReal) (r : Fin R) (j : Fin 128) : EReal :=
  logistic (pre x h wx wh r (col 128 j)) * c (ix2 r j)
    + logistic (pre x h wx wh r (col 0 j)) * Ideal.tanh (pre x h wx wh r (col 384 j))

/-- The new hidden state: output gate times `tanh` of the new cell state. -/
def hidden (x h c : (Rows R).Idx → EReal) (wx wh : Wts.Idx → EReal) (r : Fin R) (j : Fin 128) : EReal :=
  logistic (pre x h wx wh r (col 256 j)) * Ideal.tanh (cell x h c wx wh r j)

/-- The result: plane 0 the hidden state, plane 1 the cell state. -/
def G (x h c : (Rows R).Idx → EReal) (wx wh : Wts.Idx → EReal) : (Planes R).Idx → EReal :=
  fun i => if (i 0).val = 0 then hidden x h c wx wh (i 1) (i 2) else cell x h c wx wh (i 1) (i 2)

theorem G_hidden (x h c : (Rows R).Idx → EReal) (wx wh : Wts.Idx → EReal) (r : Fin R) (j : Fin 128) :
    G x h c wx wh (ix3 (0 : Fin 2) r j) = hidden x h c wx wh r j := rfl

theorem G_cell (x h c : (Rows R).Idx → EReal) (wx wh : Wts.Idx → EReal) (r : Fin R) (j : Fin 128) :
    G x h c wx wh (ix3 (1 : Fin 2) r j) = cell x h c wx wh r j := rfl

end Cert.Lstm

end
-- ==== Proof.BlockReads.lean ====
/-
  Where the pipeline's blocks sit in their arrays, for the LSTM kernel at the ideal instance.

  Grid point `t` (of 128) stages rows `2048·t … 2048·t + 2047` of the input, of the hidden state and of the cell
  state: entry `(r, k)` of each of those blocks is entry `(2048·t + r, k)` of the argument array, which no host
  operation has touched.  The weight window's block is its whole array at every point — the `[256, 512]` matrix the
  host operations built: rows 0–127 the four input-side gate matrices stacked and transposed (`wX`), rows 128–255
  the four hidden-side ones (`wH`); the narrowing to bf16 in between is the identity on extended reals.  The output
  window's block at `t` is rows `2048·t …` of both planes of the result, and since every row lies in exactly one
  such range, the 128 blocks cover the result array.
-/
import proofs.«159457_j13056700580135_2_alg».proof.Proof.LaunchIdeal
import proofs.«159457_j13056700580135_2_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Frm Cert.Lstm
open Cert.KernelIdeal.Facts₀ Cert.KernelIdeal.Facts
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The weights as the region finds them -/

/-- The input-side weights: the four input-side gate matrices stacked `[512, 128]`, transposed to `[128, 512]`. -/
def wX (c : Dev nD) : Vec Ideal S128x512 .f32 :=
  transpose S128x512 [1, 0] (concatenate S512x128 0 [⟨S128x128, m ((c : Thread nD τ).loc main_arg3)⟩, ⟨S128x128, m ((c : Thread nD τ).loc main_arg5)⟩, ⟨S128x128, m ((c : Thread nD τ).loc main_arg7)⟩, ⟨S128x128, m ((c : Thread nD τ).loc main_arg9)⟩] Gen.concatenates_S128x128_S128x128_S128x128_S128x128_S512x128_d0) Gen.transposes_S512x128_S128x512_1_0

/-- The hidden-side weights likewise. -/
def wH (c : Dev nD) : Vec Ideal S128x512 .f32 :=
  transpose S128x512 [1, 0] (concatenate S512x128 0 [⟨S128x128, m ((c : Thread nD τ).loc main_arg4)⟩, ⟨S128x128, m ((c : Thread nD τ).loc main_arg6)⟩, ⟨S128x128, m ((c : Thread nD τ).loc main_arg8)⟩, ⟨S128x128, m ((c : Thread nD τ).loc main_arg10)⟩] Gen.concatenates_S128x128_S128x128_S128x128_S128x128_S512x128_d0) Gen.transposes_S512x128_S128x512_1_0

/-- The matrix the weight window stages: the two stacks, narrowed, one on top of the other.  (The second stack's
    operands are read past the first stacking, which writes none of them.) -/
theorem V_v6 (c : Dev nD) : (V m c main_v6 : S256x512.Idx → EReal)
    = (concatenate S256x512 0 [⟨S128x512, truncf (F := Ideal) .bf16 (wX m c) Gen.bitsLt_bf16_f32⟩, ⟨S128x512, truncf (F := Ideal) .bf16 (wH m c) Gen.bitsLt_bf16_f32⟩] Gen.concatenates_S128x512_S128x512_S256x512_d0 : S256x512.Idx → EReal) := by
  dsimp only [V, hostOps0]
  after_results
  simp (disch := decide) only [StableHlo.nary_result_ne]
  rfl

/-- Rows 0–127 of that matrix are the input-side weights; -/
theorem v6_top (c : Dev nD) (k : Fin 128) (n : Fin 512) :
    V m c main_v6 (ix2 (⟨k.val, by omega⟩ : Fin 256) n) = wX m c (ix2 k n) :=
  (congrFun (V_v6 m c) _).trans
    (concatenate_pair_apply_left (0 : Fin S256x512.rank) _ _ Gen.concatenates_S128x512_S128x512_S256x512_d0
      (ix2 (⟨k.val, by omega⟩ : Fin 256) n) rfl (ix2 k n) (fun b => match b with | ⟨0, _⟩ => rfl | ⟨1, _⟩ => rfl))

/-- rows 128–255 the hidden-side ones. -/
theorem v6_bot (c : Dev nD) (k : Fin 128) (n : Fin 512) :
    V m c main_v6 (ix2 (⟨128 + k.val, by omega⟩ : Fin 256) n) = wH m c (ix2 k n) :=
  (congrFun (V_v6 m c) _).trans
    (concatenate_pair_apply_right (0 : Fin S256x512.rank) _ _ Gen.concatenates_S128x512_S128x512_S256x512_d0
      (ix2 (⟨128 + k.val, by omega⟩ : Fin 256) n) rfl rfl (ix2 k n)
      (fun b => match b with | ⟨0, _⟩ => fun h => absurd rfl h | ⟨1, _⟩ => fun _ => rfl)
      (by show k.val + 128 = 128 + k.val; omega))

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- Row `r` of the block at point `t` is row `2048·t + r` of the batch. -/
def row (t : Fin cfg0.N) (r : Fin 2048) : Fin 262144 :=
  ⟨t.val * 2048 + r.val, by have h1 := t.isLt; have h2 := r.isLt; have h : cfg0.N = 128 := N_0; omega⟩

/-! ## An element of a block, in its array -/

theorem emb0 (t : Fin cfg0.N) (r : Fin 2048) (k : Fin 128) :
    ((cfg0.win 0).blk t).view.emb (ix2 r k) = ix2 (row t r) k := by
  obtain ⟨e0, e1, e2, e3, e4, e5, -⟩ := idx_facts t
  funext a; apply Fin.ext
  match a with
  | ⟨0, _⟩ => show win0_0.index t (0 : Fin 2) * 2048 + 1 * r.val = t.val * 2048 + r.val; omega
  | ⟨1, _⟩ => show win0_0.index t (1 : Fin 2) * 128 + 1 * k.val = k.val; omega

theorem emb1 (t : Fin cfg0.N) (r : Fin 2048) (k : Fin 128) :
    ((cfg0.win 1).blk t).view.emb (ix2 r k) = ix2 (row t r) k := by
  obtain ⟨e0, e1, e2, e3, e4, e5, -⟩ := idx_facts t
  funext a; apply Fin.ext
  match a with
  | ⟨0, _⟩ => show win0_1.index t (0 : Fin 2) * 2048 + 1 * r.val = t.val * 2048 + r.val; omega
  | ⟨1, _⟩ => show win0_1.index t (1 : Fin 2) * 128 + 1 * k.val = k.val; omega

theorem emb2 (t : Fin cfg0.N) (r : Fin 2048) (k : Fin 128) :
    ((cfg0.win 2).blk t).view.emb (ix2 r k) = ix2 (row t r) k := by
  obtain ⟨e0, e1, e2, e3, e4, e5, -⟩ := idx_facts t
  funext a; apply Fin.ext
  match a with
  | ⟨0, _⟩ => show win0_2.index t (0 : Fin 2) * 2048 + 1 * r.val = t.val * 2048 + r.val; omega
  | ⟨1, _⟩ => show win0_2.index t (1 : Fin 2) * 128 + 1 * k.val = k.val; omega

theorem emb3 (t : Fin cfg0.N) (k : Fin 256) (n : Fin 512) :
    ((cfg0.win 3).blk t).view.emb (ix2 k n) = ix2 k n := by
  obtain ⟨-, -, -, -, -, -, e6, e7, -⟩ := idx_facts t
  funext a; apply Fin.ext
  match a with
  | ⟨0, _⟩ => show win0_3.index t (0 : Fin 2) * 256 + 1 * k.val = k.val; omega
  | ⟨1, _⟩ => show win0_3.index t (1 : Fin 2) * 512 + 1 * n.val = n.val; omega

theorem emb4 (t : Fin cfg0.N) (s : Fin 2) (r : Fin 2048) (j : Fin 128) :
    ((cfg0.win 4).blk t).view.emb (ix3 s r j) = ix3 s (row t r) j := by
  obtain ⟨-, -, -, -, -, -, -, -, e8, e9, e10⟩ := idx_facts t
  funext a; apply Fin.ext
  match a with
  | ⟨0, _⟩ => show win0_4.index t (0 : Fin 3) * 2 + 1 * s.val = s.val; omega
  | ⟨1, _⟩ => show win0_4.index t (1 : Fin 3) * 2048 + 1 * r.val = t.val * 2048 + r.val; omega
  | ⟨2, _⟩ => show win0_4.index t (2 : Fin 3) * 128 + 1 * j.val = j.val; omega

/-! ## The input blocks, read -/

theorem read0 (c : Dev nD) (t : Fin cfg0.N) (r : Fin 2048) (k : Fin 128) :
    iblk m c 0 t (ix2 r k) = m ((c : Thread nD τ).loc main_arg0) (ix2 (row t r) k) :=
  (show iblk m c 0 t (ix2 r k) = V m c main_arg0 (((cfg0.win 0).blk t).view.emb (ix2 r k)) from rfl).trans
    ((congrArg (V m c main_arg0) (emb0 t r k)).trans (congrFun (V_main_arg0 m c) _))

theorem read1 (c : Dev nD) (t : Fin cfg0.N) (r : Fin 2048) (k : Fin 128) :
    iblk m c 1 t (ix2 r k) = m ((c : Thread nD τ).loc main_arg1) (ix2 (row t r) k) :=
  (show iblk m c 1 t (ix2 r k) = V m c main_arg1 (((cfg0.win 1).blk t).view.emb (ix2 r k)) from rfl).trans
    ((congrArg (V m c main_arg1) (emb1 t r k)).trans (congrFun (V_main_arg1 m c) _))

theorem read2 (c : Dev nD) (t : Fin cfg0.N) (r : Fin 2048) (k : Fin 128) :
    iblk m c 2 t (ix2 r k) = m ((c : Thread nD τ).loc main_arg2) (ix2 (row t r) k) :=
  (show iblk m c 2 t (ix2 r k) = V m c main_arg2 (((cfg0.win 2).blk t).view.emb (ix2 r k)) from rfl).trans
    ((congrArg (V m c main_arg2) (emb2 t r k)).trans (congrFun (V_main_arg2 m c) _))

theorem read3 (c : Dev nD) (t : Fin cfg0.N) (k : Fin 256) (n : Fin 512) :
    iblk m c 3 t (ix2 k n) = V m c main_v6 (ix2 k n) :=
  (show iblk m c 3 t (ix2 k n) = V m c main_v6 (((cfg0.win 3).blk t).view.emb (ix2 k n)) from rfl).trans
    (congrArg (V m c main_v6) (emb3 t k n))

/-! ## The output blocks cover the result -/

/-- An index of the result is in point `t`'s block iff each coordinate is in the block's range on its axis. -/
theorem mem_blk4 (t : Fin cfg0.N) (i : S2x262144x128.Idx) :
    i ∈ ((cfg0.win 4).blk t).view.set ↔ ∀ a : Fin 3, win0_4.index t a * S2x2048x128.size a ≤ (i a).val ∧ (i a).val < win0_4.index t a * S2x2048x128.size a + S2x2048x128.size a := by
  show i ∈ ((View.whole main_v7).slice (win0_4.rect t)).set ↔ _
  rw [View.set_slice_whole, Rect.mem_set_unit]
  exact Iff.rfl

/-- Row `ρ` of the result lies in the block of point `ρ / 2048`. -/
theorem cover4 (i : S2x262144x128.Idx) :
    ∃ t : Fin cfg0.N, (cfg0.win 4).flush t = true ∧ i ∈ ((cfg0.win 4).blk t).view.set := by
  have h0 : (i 0).val < 2 := (i 0).isLt
  have h1 : (i 1).val < 262144 := (i 1).isLt
  have h2 : (i 2).val < 128 := (i 2).isLt
  have hN : cfg0.N = 128 := N_0
  refine ⟨⟨(i 1).val / 2048, by omega⟩, flush0_4 _, ?_⟩
  rw [mem_blk4]
  obtain ⟨-, -, -, -, -, -, -, -, e8, e9, e10⟩ := idx_facts ⟨(i 1).val / 2048, by omega⟩
  intro a
  match a with
  | ⟨0, _⟩ => show win0_4.index _ (0 : Fin 3) * 2 ≤ (i 0).val ∧ (i 0).val < win0_4.index _ (0 : Fin 3) * 2 + 2; rw [e8]; omega
  | ⟨1, _⟩ => show win0_4.index _ (1 : Fin 3) * 2048 ≤ (i 1).val ∧ (i 1).val < win0_4.index _ (1 : Fin 3) * 2048 + 2048; rw [e9]; show (i 1).val / 2048 * 2048 ≤ (i 1).val ∧ (i 1).val < (i 1).val / 2048 * 2048 + 2048; omega
  | ⟨2, _⟩ => show win0_4.index _ (2 : Fin 3) * 128 ≤ (i 2).val ∧ (i 2).val < win0_4.index _ (2 : Fin 3) * 128 + 128; rw [e10]; omega

end Cert.KernelIdeal.KValue

end
-- ==== Proof.LibLogisticTanh.lean ====
/-
  GENERAL: the logistic function through the hyperbolic tangent, on the extended reals.

  A kernel that computes a sigmoid as ½·(tanh(½·v) + 1) (one transcendental instead of an exponential and a
  reciprocal) meets a reference that computes 1/(1 + e^{-v}).  The two agree at EVERY extended real, so no
  finiteness is needed to pass from one to the other:
    * on the reals, with u = e^{x/2}: tanh(x/2) = (u − u⁻¹)/(u + u⁻¹) and e^{-x} = (u⁻¹)², so both sides are
      u/(u + u⁻¹) (`logistic_tanh_real`);
    * at −∞: ½·(−∞) = −∞, tanh = −1, −1 + 1 = 0, and on the other side e^{+∞} = +∞, 1/(1 + ∞) = 0;
    * at +∞: tanh = 1, ½·2 = 1, and on the other side e^{−∞} = 0, 1/(1 + 0) = 1.
  Stated over the float literals as a printed program carries them: the words 0x3F000000 (0.5) and 0x3F800000
  (1.0) of the 32-bit format (`ofBits_half_f32`, `ofBits_one_f32`).  `half_tanh_eq_logistic` is the law against the
  library's `Ideal.logistic`; `div_one_add_exp_neg` says the spelled-out quotient 1/(1 + e^{-v}) is that function;
  `half_tanh_eq_div` joins the two spellings directly.
  Also here: a sum over `n + n` indices is the sum over the first `n` plus the sum over the last `n`
  (`sum_fin_halves`: a contraction over a concatenation [x | h] is the two contractions added).
-/
import Idealize.ShloMosaic.PureOps.Ideal

noncomputable section

namespace Cert.LibLogisticTanh

open Idealize.ShloMosaic

/-- The word of the float `1.0` denotes the extended real `1`. -/
theorem ofBits_one_f32 : Ideal.ofBits .f32 0x3F800000#32 = 1 := by
  simp [Ideal.ofBits, Ideal.ieee, -EReal.coe_mul]; norm_num

/-- The word of the float `0.5` denotes the real `1/2`. -/
theorem ofBits_half_f32 : Ideal.ofBits .f32 0x3F000000#32 = (((1 : ℝ) / 2 : ℝ) : EReal) := by
  simp [Ideal.ofBits, Ideal.ieee, -EReal.coe_mul]; norm_num

/-- On the reals: ½·(tanh(x/2) + 1) = 1/(1 + e^{-x}). -/
theorem logistic_tanh_real (x : ℝ) : (1 / 2 : ℝ) * (Real.tanh ((1 / 2 : ℝ) * x) + 1) = (1 + Real.exp (-x))⁻¹ := by
  have hu : 0 < Real.exp ((1 / 2 : ℝ) * x) := Real.exp_pos _
  have hx : Real.exp (-x) = (Real.exp ((1 / 2 : ℝ) * x))⁻¹ * (Real.exp ((1 / 2 : ℝ) * x))⁻¹ := by
    rw [← Real.exp_neg, ← Real.exp_add]; congr 1; ring
  rw [Real.tanh_eq_sinh_div_cosh, Real.sinh_eq, Real.cosh_eq, Real.exp_neg, hx]
  set u := Real.exp ((1 / 2 : ℝ) * x) with hudef
  have hu' : u ≠ 0 := hu.ne'
  have h1 : u * u + 1 ≠ 0 := by positivity
  field_simp
  ring

/-- ½·(tanh(½·v) + 1) is the logistic function of `v`, at every extended real. -/
theorem half_tanh_eq_logistic (v : EReal) :
    Ideal.ofBits .f32 0x3F000000#32 * (Ideal.tanh (Ideal.ofBits .f32 0x3F000000#32 * v) + Ideal.ofBits .f32 0x3F800000#32)
      = Ideal.logistic v := by
  rw [ofBits_one_f32, ofBits_half_f32]
  induction v using EReal.rec with
  | bot =>
    rw [EReal.coe_mul_bot_of_pos (by norm_num), Ideal.tanh_bot, Ideal.logistic_bot]
    have : (-1 : EReal) + 1 = 0 := by
      rw [← EReal.coe_one, ← EReal.coe_neg, ← EReal.coe_add]; norm_num
    rw [this, mul_zero]
  | coe x =>
    rw [← EReal.coe_mul, Ideal.tanh_coe, Ideal.logistic_coe, ← EReal.coe_one, ← EReal.coe_add, ← EReal.coe_mul,
      logistic_tanh_real]
  | top =>
    rw [EReal.coe_mul_top_of_pos (by norm_num), Ideal.tanh_top, Ideal.logistic_top]
    rw [← EReal.coe_one, ← EReal.coe_add, ← EReal.coe_mul]; norm_num

/-- The quotient 1/(1 + e^{-v}), spelled with the float `1.0`, is the logistic function. -/
theorem div_one_add_exp_neg (v : EReal) :
    Ideal.div (Ideal.ofBits .f32 0x3F800000#32) (Ideal.ofBits .f32 0x3F800000#32 + Ideal.exp (-v)) = Ideal.logistic v := by
  rw [ofBits_one_f32]; rfl

/-- The two spellings of the logistic function agree at every extended real. -/
theorem half_tanh_eq_div (v : EReal) :
    Ideal.ofBits .f32 0x3F000000#32 * (Ideal.tanh (Ideal.ofBits .f32 0x3F000000#32 * v) + Ideal.ofBits .f32 0x3F800000#32)
      = Ideal.div (Ideal.ofBits .f32 0x3F800000#32) (Ideal.ofBits .f32 0x3F800000#32 + Ideal.exp (-v)) :=
  (half_tanh_eq_logistic v).trans (div_one_add_exp_neg v).symm

/-- A sum over `n + n` indices is the sum over the first `n` plus the sum over the last `n`. -/
theorem sum_fin_halves {M : Type*} [AddCommMonoid M] (n : Nat) (f : Fin (n + n) → M) :
    ∑ k : Fin (n + n), f k = (∑ k : Fin n, f (Fin.castAdd n k)) + ∑ k : Fin n, f (Fin.natAdd n k) :=
  Fin.sum_univ_add f

end Cert.LibLogisticTanh

end
-- ==== Proof.GateLaw.lean ====
/-
  Two laws on the extended reals that join the two spellings of the cell.

  `gate_eq`: the logistic function written through the hyperbolic tangent, ½·(tanh(½·v) + 1), is 1/(1 + e^{-v})
  at every extended real — on the reals the identity tanh(u) = (e^{2u} − 1)/(e^{2u} + 1) at u = v/2; at +∞ both sides
  are 1, at −∞ both are 0 (the general law, Proof/LibLogisticTanh.lean, at this cell's constants).
  `sum_halves`: a sum over 256 indices is the sum over the first 128 plus the sum over the last 128.
-/
import proofs.«159457_j13056700580135_2_alg».proof.Proof.Spec
import proofs.«159457_j13056700580135_2_alg».proof.Proof.LibLogisticTanh

noncomputable section

namespace Cert.Lstm

open Idealize.ShloMosaic

theorem gate_eq (v : EReal) : half * (Ideal.tanh (half * v) + one) = logistic v :=
  Cert.LibLogisticTanh.half_tanh_eq_div v

theorem sum_halves {M : Type*} [AddCommMonoid M] (f : Fin 256 → M) :
    ∑ k : Fin 256, f k
      = (∑ k : Fin 128, f ⟨k.val, by omega⟩) + ∑ k : Fin 128, f ⟨128 + k.val, by omega⟩ := by
  exact Fin.sum_univ_add (a := 128) (b := 128) f

end Cert.Lstm

end
-- ==== Proof.BodyValue.lean ====
/-
  The kernel body's arithmetic, index by index, on the extended reals.

  The body sets the input block and the hidden block side by side as a [2048,256] array, multiplies it by the
  [256,512] weight block into a zero accumulator, cuts the product into the four gates' 128 columns each, and combines
  them element by element.  Row r, column n of the product is
      ∑ₖ x[r,k]·w[k,n] + ∑ₖ h[r,k]·w[128+k,n],
  the specification's pre-activation with the weight block's upper half against the input and its lower half against
  the hidden state; each gate ½·(tanh(½·v) + 1) is the logistic function of v; so the two arrays the body computes are
  the specification's new cell state and new hidden state on the block's 2048 rows.
-/
import proofs.«159457_j13056700580135_2_alg».proof.Proof.GateLaw
import proofs.«159457_j13056700580135_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Cert.Lstm Idealize.ShloMosaic Idealize.ShloMosaic.ValueIdx

/-- Rows 0..127 of a [256,512] matrix, as a [128,512] one. -/
def topHalf (w : S256x512.Idx → EReal) : Wts.Idx → EReal := fun i =>
  w (ix2 (⟨(i 0).val, by have h : (i 0).val < 128 := (i 0).isLt; omega⟩ : Fin 256) (⟨(i 1).val, (i 1).isLt⟩ : Fin 512))

/-- Rows 128..255 of a [256,512] matrix, as a [128,512] one. -/
def botHalf (w : S256x512.Idx → EReal) : Wts.Idx → EReal := fun i =>
  w (ix2 (⟨128 + (i 0).val, by have h : (i 0).val < 128 := (i 0).isLt; omega⟩ : Fin 256) (⟨(i 1).val, (i 1).isLt⟩ : Fin 512))

/-! ## The matmul's operand indices -/

theorem lhs_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem lhs_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The left operand's index of the contraction: row `r`, column the contracted index. -/
theorem lhsIdx_eq (r : Fin 2048) (n : Fin 512) (k : Fin 256) :
    dot_S2048x256_S256x512_S2048x512_1_0_0_1_n_n.lhsIdx (ix2 r n)
      ((contrEquiv1 dot_S2048x256_S256x512_S2048x512_1_0_0_1_n_n 256 rfl rfl).symm k) = ix2 r k := by
  have hk := contrEquiv1_symm_val dot_S2048x256_S256x512_S2048x512_1_0_0_1_n_n 256 rfl rfl k
  exact funext fun a => Fin.ext (by
    match a with
    | ⟨0, _⟩ => exact lhs_0 _ _
    | ⟨1, _⟩ => exact (lhs_1 _ _).trans hk)

/-- The right operand's index of the contraction: row the contracted index, column `n`. -/
theorem rhsIdx_eq (r : Fin 2048) (n : Fin 512) (k : Fin 256) :
    dot_S2048x256_S256x512_S2048x512_1_0_0_1_n_n.rhsIdx (ix2 r n)
      ((contrEquiv1 dot_S2048x256_S256x512_S2048x512_1_0_0_1_n_n 256 rfl rfl).symm k) = ix2 k n := by
  have hk := contrEquiv1_symm_val dot_S2048x256_S256x512_S2048x512_1_0_0_1_n_n 256 rfl rfl k
  exact funext fun a => Fin.ext (by
    match a with
    | ⟨0, _⟩ => exact (rhs_0 _ _).trans hk
    | ⟨1, _⟩ => exact rhs_1 _ _)

/-! ## The concatenation [x | h] -/

/-- The concatenation [x | h] along the columns reads `x` on its first 128 columns. -/
theorem concat_left (a b : S2048x128.Idx → EReal) (r : Fin 2048) (k : Fin 128) :
    concatenate S2048x256 1 [⟨S2048x128, a⟩, ⟨S2048x128, b⟩] Facts₀.concatenates_S2048x128_S2048x128_S2048x256_d1
      (ix2 r (⟨k.val, by omega⟩ : Fin 256)) = a (ix2 r k) :=
  concatenate_pair_apply_left (t := S2048x256) 1 a b Facts₀.concatenates_S2048x128_S2048x128_S2048x256_d1
    (ix2 r (⟨k.val, by omega⟩ : Fin 256)) rfl (ix2 r k) (fun c => match c with
    | ⟨0, _⟩ => rfl
    | ⟨1, _⟩ => rfl)

/-- The concatenation [x | h] along the columns reads `h` on its last 128 columns. -/
theorem concat_right (a b : S2048x128.Idx → EReal) (r : Fin 2048) (k : Fin 128) :
    concatenate S2048x256 1 [⟨S2048x128, a⟩, ⟨S2048x128, b⟩] Facts₀.concatenates_S2048x128_S2048x128_S2048x256_d1
      (ix2 r (⟨128 + k.val, by omega⟩ : Fin 256)) = b (ix2 r k) :=
  concatenate_pair_apply_right (t := S2048x256) 1 a b Facts₀.concatenates_S2048x128_S2048x128_S2048x256_d1
    (ix2 r (⟨128 + k.val, by omega⟩ : Fin 256)) rfl rfl (ix2 r k) (fun c => match c with
    | ⟨0, _⟩ => fun _ => rfl
    | ⟨1, _⟩ => fun h => absurd rfl h) (by show k.val + 128 = 128 + k.val; omega)

/-! ## The pre-activations -/

/-- The matmul of [x | h] against the weight block, at row `r` and column `n`: the pre-activation. -/
theorem pay3_apply (x0 x1 : Vec Ideal S2048x128 .f32) (w : Vec Ideal S256x512 .bf16) (r : Fin 2048) (n : Fin 512) :
    k0_pay3 (F := Ideal) x0 x1 w (ix2 r n) = pre (R := 2048) x0 x1 (topHalf w) (botHalf w) r n := by
  unfold k0_pay3
  rw [shapeCast_self]
  refine (Ideal.matmul_constant_zero_apply (φ₁ := .bf16) (φ₂ := .bf16) dot_S2048x256_S256x512_S2048x512_1_0_0_1_n_n none _ w (ix2 r n)).trans ?_
  rw [← Equiv.sum_comp (contrEquiv1 dot_S2048x256_S256x512_S2048x512_1_0_0_1_n_n 256 rfl rfl).symm]
  rw [sum_halves]
  unfold pre
  refine congrArg₂ (· + ·) (Finset.sum_congr rfl fun k _ => ?_) (Finset.sum_congr rfl fun k _ => ?_)
  · rw [lhsIdx_eq, rhsIdx_eq, concat_left]
    rfl
  · rw [lhsIdx_eq, rhsIdx_eq, concat_right]
    rfl

/-! ## The four gate slices -/

/-- The 128 columns from `o` on of a [2048,512] array, at row `r` and column `j`: column `o + j`. -/
theorem slice_apply (o : Nat) (ho : o + 128 ≤ 512) (y : S2048x512.Idx → EReal) (h : S2048x512.Slices ![0, o] S2048x128)
    (r : Fin 2048) (j : Fin 128) :
    extractStridedSlice S2048x128 ![0, o] y h (ix2 r j) = y (ix2 r (col o j ho)) :=
  extractStridedSlice_apply ![0, o] y h (ix2 r j) (ix2 r (col o j ho)) (fun a => match a with
    | ⟨0, _⟩ => by show r.val = 0 + r.val; omega
    | ⟨1, _⟩ => by show o + j.val = o + j.val; rfl)

/-- The hyperbolic tangent of an array is taken element by element. -/
theorem tanh_apply {s : Shape} {φ : FTy} (a : FVec Ideal s φ) (i : s.Idx) : tanh a i = Ideal.tanh (a i) := rfl

/-! ## The new cell state and the new hidden state -/

/-- The body's new cell state at row `r`, column `j`: the specification's, on the block's 2048 rows, with the weight
    block's upper half against the input and its lower half against the hidden state. -/
theorem pay4_apply (x0 x1 x2 : Vec Ideal S2048x128 .f32) (w : Vec Ideal S256x512 .bf16) (r : Fin 2048) (j : Fin 128) :
    k0_pay4 (F := Ideal) x0 x1 w x2 (ix2 r j) = cell (R := 2048) x0 x1 x2 (topHalf w) (botHalf w) r j := by
  unfold k0_pay4
  simp only [addf_apply, mulf_apply, tanh_apply, broadcast_apply, Ideal.ofBits_def]
  rw [slice_apply 128 (by decide), slice_apply 0 (by decide), slice_apply 384 (by decide),
    pay3_apply, pay3_apply, pay3_apply, gate_eq, gate_eq]
  rfl

/-- The body's new hidden state at row `r`, column `j`: the specification's. -/
theorem pay5_apply (x0 x1 x2 : Vec Ideal S2048x128 .f32) (w : Vec Ideal S256x512 .bf16) (r : Fin 2048) (j : Fin 128) :
    k0_pay5 (F := Ideal) x0 x1 w x2 (ix2 r j) = hidden (R := 2048) x0 x1 x2 (topHalf w) (botHalf w) r j := by
  unfold k0_pay5
  simp only [mulf_apply, addf_apply, tanh_apply, broadcast_apply, Ideal.ofBits_def]
  rw [slice_apply 256 (by decide), pay3_apply, pay4_apply, gate_eq]
  rfl

/-! ## The shape casts in front of the two stores -/

/-- A [2048,128] array seen as [1,2048,128] reads, at (0, r, j), the array at (r, j). -/
theorem pay1_apply (v : FVec Ideal S2048x128 .f32) (r : Fin 2048) (j : Fin 128) :
    k0_pay1 (F := Ideal) v (ix3 (0 : Fin 1) r j) = v (ix2 r j) := by
  unfold k0_pay1
  refine (shapeCast_addUnit_apply ![2048, 128] v _ (ix3 (0 : Fin 1) r j)).trans ?_
  exact congrArg v (funext fun a => match a with
    | ⟨0, _⟩ => rfl
    | ⟨1, _⟩ => rfl)

/-- The same for the second store. -/
theorem pay2_apply (v : FVec Ideal S2048x128 .f32) (r : Fin 2048) (j : Fin 128) :
    k0_pay2 (F := Ideal) v (ix3 (0 : Fin 1) r j) = v (ix2 r j) := by
  unfold k0_pay2
  refine (shapeCast_addUnit_apply ![2048, 128] v _ (ix3 (0 : Fin 1) r j)).trans ?_
  exact congrArg v (funext fun a => match a with
    | ⟨0, _⟩ => rfl
    | ⟨1, _⟩ => rfl)

end Cert.KernelIdeal.BodyValue

end
-- ==== Proof.SpecRows.lean ====
/-
  The cell is computed row by row: row `r` of the result reads row `r` of the input, of the hidden state and of the
  cell state, and the weights — nothing else.  So two batches that agree on a row (under any renumbering of the
  rows) and use the same weights give the same result on it.  This is what lets a block of 2048 rows, computed on
  its own, be the corresponding rows of the whole batch's result.
-/
import proofs.«159457_j13056700580135_2_alg».proof.Proof.Spec

noncomputable section

namespace Cert.Lstm

open Idealize.ShloMosaic Idealize.ShloMosaic.ValueIdx

variable {R R' : Nat}

theorem pre_rows (x h : (Rows R).Idx → EReal) (x' h' : (Rows R').Idx → EReal) (wx wh wx' wh' : Wts.Idx → EReal)
    (r : Fin R) (r' : Fin R') (hx : ∀ k : Fin 128, x (ix2 r k) = x' (ix2 r' k)) (hh : ∀ k : Fin 128, h (ix2 r k) = h' (ix2 r' k))
    (hwx : wx = wx') (hwh : wh = wh') (n : Fin 512) :
    pre x h wx wh r n = pre x' h' wx' wh' r' n := by
  subst hwx hwh
  unfold pre
  simp only [hx, hh]

theorem cell_rows (x h c : (Rows R).Idx → EReal) (x' h' c' : (Rows R').Idx → EReal) (wx wh wx' wh' : Wts.Idx → EReal)
    (r : Fin R) (r' : Fin R') (hx : ∀ k : Fin 128, x (ix2 r k) = x' (ix2 r' k)) (hh : ∀ k : Fin 128, h (ix2 r k) = h' (ix2 r' k))
    (hc : ∀ k : Fin 128, c (ix2 r k) = c' (ix2 r' k)) (hwx : wx = wx') (hwh : wh = wh') (j : Fin 128) :
    cell x h c wx wh r j = cell x' h' c' wx' wh' r' j := by
  unfold cell
  rw [hc j, pre_rows x h x' h' wx wh wx' wh' r r' hx hh hwx hwh, pre_rows x h x' h' wx wh wx' wh' r r' hx hh hwx hwh,
    pre_rows x h x' h' wx wh wx' wh' r r' hx hh hwx hwh]

theorem hidden_rows (x h c : (Rows R).Idx → EReal) (x' h' c' : (Rows R').Idx → EReal) (wx wh wx' wh' : Wts.Idx → EReal)
    (r : Fin R) (r' : Fin R') (hx : ∀ k : Fin 128, x (ix2 r k) = x' (ix2 r' k)) (hh : ∀ k : Fin 128, h (ix2 r k) = h' (ix2 r' k))
    (hc : ∀ k : Fin 128, c (ix2 r k) = c' (ix2 r' k)) (hwx : wx = wx') (hwh : wh = wh') (j : Fin 128) :
    hidden x h c wx wh r j = hidden x' h' c' wx' wh' r' j := by
  unfold hidden
  rw [cell_rows x h c x' h' c' wx wh wx' wh' r r' hx hh hc hwx hwh, pre_rows x h x' h' wx wh wx' wh' r r' hx hh hwx hwh]

/-- Plane `s`, row `r` of one batch's result is plane `s`, row `r'` of the other's. -/
theorem G_rows (x h c : (Rows R).Idx → EReal) (x' h' c' : (Rows R').Idx → EReal) (wx wh wx' wh' : Wts.Idx → EReal)
    (r : Fin R) (r' : Fin R') (hx : ∀ k : Fin 128, x (ix2 r k) = x' (ix2 r' k)) (hh : ∀ k : Fin 128, h (ix2 r k) = h' (ix2 r' k))
    (hc : ∀ k : Fin 128, c (ix2 r k) = c' (ix2 r' k)) (hwx : wx = wx') (hwh : wh = wh') (s : Fin 2) (j : Fin 128) :
    G x h c wx wh (ix3 s r j) = G x' h' c' wx' wh' (ix3 s r' j) := by
  show (if s.val = 0 then hidden x h c wx wh r j else cell x h c wx wh r j)
    = (if s.val = 0 then hidden x' h' c' wx' wh' r' j else cell x' h' c' wx' wh' r' j)
  rw [hidden_rows x h c x' h' c' wx wh wx' wh' r r' hx hh hc hwx hwh, cell_rows x h c x' h' c' wx wh wx' wh' r r' hx hh hc hwx hwh]

end Cert.Lstm

end
-- ==== Proof.KernelValue.lean ====
/-
  What the LSTM kernel leaves in its result array, at the ideal instance: the specification `Cert.Lstm.G` of the
  argument arrays.

  At grid point `t` the body stores plane 1 (the new cell state) and then plane 0 (the new hidden state) of its
  output buffer; each store's payload, entry by entry, is the specification computed ON THE BLOCK — the 2048 staged
  rows of the input, hidden state and cell state, against the top and bottom halves of the staged weight matrix
  (`outBlock_eq`).  A row of the specification reads only that row of its three row arrays, the block's row `r` is
  the batch's row `2048·t + r`, and the staged matrix's halves are the two weight stacks; so the block's result is
  rows `2048·t …` of the whole batch's (`flushed_eq`).  The 128 blocks cover the result array, so after the run it
  holds the specification of the arguments everywhere (`final`), and the run ends there with the arguments
  unchanged (`run`).
-/
import proofs.«159457_j13056700580135_2_alg».proof.Proof.BlockReads
import proofs.«159457_j13056700580135_2_alg».proof.Proof.BodyValue
import proofs.«159457_j13056700580135_2_alg».proof.Proof.SpecRows

set_option maxRecDepth 16384

noncomputable section

namespace Cert.KernelIdeal.KValue

open Cert.KernelIdeal Cert.KernelIdeal.Gen Cert.KernelIdeal.Frm Cert.KernelIdeal.BodyValue Cert.Lstm
open Cert.KernelIdeal.Facts₀ Cert.KernelIdeal.Facts
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The staged weight matrix's halves -/

theorem top_eq (c : Dev nD) (t : Fin cfg0.N) : topHalf (iblk m c 3 t) = wX m c := by
  funext i
  obtain ⟨k, n, rfl⟩ : ∃ (k : Fin 128) (n : Fin 512), i = ix2 k n := ⟨i 0, i 1, eq_ix2 i⟩
  exact (read3 m c t _ _).trans (v6_top m c k n)

theorem bot_eq (c : Dev nD) (t : Fin cfg0.N) : botHalf (iblk m c 3 t) = wH m c := by
  funext i
  obtain ⟨k, n, rfl⟩ : ∃ (k : Fin 128) (n : Fin 512), i = ix2 k n := ⟨i 0, i 1, eq_ix2 i⟩
  exact (read3 m c t _ _).trans (v6_bot m c k n)

/-! ## The body's result on a block is the specification on the block -/

theorem hz2 : (![0, 0] : Fin 2 → Nat) = fun _ => 0 := funext fun a => by fin_cases a <;> rfl

theorem plane0_emb (r : Fin 2048) (j : Fin 128) : rPlane0.emb (ix3 (0 : Fin 1) r j) = ix3 (0 : Fin 2) r j :=
  funext fun a => Fin.ext (by
    rw [Rect.emb_apply]
    match a with
    | ⟨0, _⟩ => rfl
    | ⟨1, _⟩ => show 0 + 1 * r.val = r.val; omega
    | ⟨2, _⟩ => show 0 + 1 * j.val = j.val; omega)

theorem plane1_emb (r : Fin 2048) (j : Fin 128) : rPlane1.emb (ix3 (0 : Fin 1) r j) = ix3 (1 : Fin 2) r j :=
  funext fun a => Fin.ext (by
    rw [Rect.emb_apply]
    match a with
    | ⟨0, _⟩ => rfl
    | ⟨1, _⟩ => show 0 + 1 * r.val = r.val; omega
    | ⟨2, _⟩ => show 0 + 1 * j.val = j.val; omega)

/-- The output buffer after the body is, entry by entry, the specification of the four staged blocks. -/
theorem outBlock_eq (x0 x1 x2 : Vec Ideal S2048x128 .f32) (w : Vec Ideal S256x512 .bf16) :
    outBlock (F := Ideal) x0 x1 x2 w = G (R := 2048) x0 x1 x2 (topHalf w) (botHalf w) := by
  funext y
  unfold outBlock
  rw [View.ld_unit_zero (S := S2048x128) hz2, View.ld_unit_zero (S := S2048x128) hz2,
    View.ld_unit_zero (S := S2048x128) hz2, View.ld_unit_zero (S := S256x512) hz2]
  refine View.canon_apply_of_pieces (Val := Elt Ideal) (S := S2x2048x128) (e := .f32) (G (R := 2048) x0 x1 x2 (topHalf w) (botHalf w)) _ ?_ y (cover_planes _ _ y)
  intro p hp x
  rcases List.mem_cons.mp hp with rfl | hp
  · obtain ⟨u, r, j, rfl⟩ : ∃ (u : Fin 1) (r : Fin 2048) (j : Fin 128), x = ix3 u r j := ⟨x 0, x 1, x 2, eq_ix3 x⟩
    obtain rfl : u = 0 := Subsingleton.elim _ _
    show k0_pay2 (F := Ideal) (k0_pay4 x0 x1 w x2) (ix3 (0 : Fin 1) r j) = _
    rw [pay2_apply, pay4_apply, plane1_emb]
    rfl
  · obtain rfl := List.mem_singleton.mp hp
    obtain ⟨u, r, j, rfl⟩ : ∃ (u : Fin 1) (r : Fin 2048) (j : Fin 128), x = ix3 u r j := ⟨x 0, x 1, x 2, eq_ix3 x⟩
    obtain rfl : u = 0 := Subsingleton.elim _ _
    show k0_pay1 (F := Ideal) (k0_pay5 x0 x1 w x2) (ix3 (0 : Fin 1) r j) = _
    rw [pay1_apply, pay5_apply, plane0_emb]
    rfl

/-! ## From blocks to the array -/

/-- The result array as ONE function of the arguments: the specification of the three row arrays and the two
    weight stacks. -/
def result (c : Dev nD) : S2x262144x128.Idx → EReal :=
  G (R := 262144) (m ((c : Thread nD τ).loc main_arg0)) (m ((c : Thread nD τ).loc main_arg1)) (m ((c : Thread nD τ).loc main_arg2)) (wX m c) (wH m c)

/-- What point `t` writes back is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after4, outBlock_eq]
  funext y
  obtain ⟨s, r, j, rfl⟩ : ∃ (s : Fin 2) (r : Fin 2048) (j : Fin 128), y = ix3 s r j := ⟨y 0, y 1, y 2, eq_ix3 y⟩
  show G (R := 2048) (iblk m c 0 t) (iblk m c 1 t) (iblk m c 2 t) (topHalf (iblk m c 3 t)) (botHalf (iblk m c 3 t)) (ix3 s r j)
    = result m c (((cfg0.win 4).blk t).view.emb (ix3 s r j))
  rw [emb4]
  exact G_rows _ _ _ _ _ _ _ _ _ _ r (row t r) (read0 m c t r) (read1 m c t r) (read2 m c t r) (top_eq m c t) (bot_eq m c t) s j

/-- The result array after the run. -/
theorem final (c : Dev nD) : (dats m 0 c).arrAt 4 cfg0.N = result m c :=
  (dats m 0 c).arrAt_eq_of_cover 4 (result m c) (fun t _ => flushed_eq m c t) cover4

/-! ## The run, read -/

/-- Every weakly fair execution of the kernel's program terminates with the result array at `result` of the
    arguments and the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefIsSpec.lean ====
/-
  The reference program computes the specification.

  Read element by element, the reference's result is the function Cert.Lstm.G of its argument arrays: the two
  matrix products summed are the pre-activations, the four column slices of width 128 are the four gates'
  columns, 1/(1+e^{-v}) of a slice is the logistic function of that gate, and the final concatenation along
  the leading axis stacks the hidden state (plane 0) on the cell state (plane 1).  The two transposed weight
  stacks are left as they are: nothing here depends on how they are assembled from the eight weight blocks.
-/
import proofs.«159457_j13056700580135_2_alg».proof.Proof.Spec
import proofs.«159457_j13056700580135_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Lstm Idealize.ShloMosaic Idealize.ShloMosaic.ValueIdx

/-! ## The index maps of the products, the slices and the added unit axis, at an index given by its coordinates -/

theorem lidx3 (r : Fin 262144) (n : Fin 512) (k : Fin 128) : lidx_main_v3 (ix2 r n) k = ix2 r k :=
  funext fun a => Fin.ext (by match a with | ⟨0, _⟩ => rfl | ⟨1, _⟩ => rfl)
theorem ridx3 (r : Fin 262144) (n : Fin 512) (k : Fin 128) : ridx_main_v3 (ix2 r n) k = ix2 k n :=
  funext fun a => Fin.ext (by match a with | ⟨0, _⟩ => rfl | ⟨1, _⟩ => rfl)
theorem lidx5 (r : Fin 262144) (n : Fin 512) (k : Fin 128) : lidx_main_v5 (ix2 r n) k = ix2 r k :=
  funext fun a => Fin.ext (by match a with | ⟨0, _⟩ => rfl | ⟨1, _⟩ => rfl)
theorem ridx5 (r : Fin 262144) (n : Fin 512) (k : Fin 128) : ridx_main_v5 (ix2 r n) k = ix2 k n :=
  funext fun a => Fin.ext (by match a with | ⟨0, _⟩ => rfl | ⟨1, _⟩ => rfl)

/-- The slice at column offset 0 reads column j. -/
theorem idx7 (r : Fin 262144) (j : Fin 128) : idx_main_v7 (ix2 r j) = ix2 r (col 0 j) :=
  funext fun a => Fin.ext (by match a with | ⟨0, _⟩ => rfl | ⟨1, _⟩ => exact (Nat.zero_add _).symm)
/-- The slice at column offset 128 reads column 128 + j. -/
theorem idx8 (r : Fin 262144) (j : Fin 128) : idx_main_v8 (ix2 r j) = ix2 r (col 128 j) :=
  funext fun a => Fin.ext (by match a with | ⟨0, _⟩ => rfl | ⟨1, _⟩ => rfl)
/-- The slice at column offset 256 reads column 256 + j. -/
theorem idx9 (r : Fin 262144) (j : Fin 128) : idx_main_v9 (ix2 r j) = ix2 r (col 256 j) :=
  funext fun a => Fin.ext (by match a with | ⟨0, _⟩ => rfl | ⟨1, _⟩ => rfl)
/-- The slice at column offset 384 reads column 384 + j. -/
theorem idx10 (r : Fin 262144) (j : Fin 128) : idx_main_v10 (ix2 r j) = ix2 r (col 384 j) :=
  funext fun a => Fin.ext (by match a with | ⟨0, _⟩ => rfl | ⟨1, _⟩ => rfl)
/-- Adding a leading unit axis: plane 0, row r, column j reads row r, column j. -/
theorem idx35 (s : Fin 1) (r : Fin 262144) (j : Fin 128) : idx_main_v35 (ix3 s r j) = ix2 r j :=
  funext fun a => Fin.ext (by match a with | ⟨0, _⟩ => rfl | ⟨1, _⟩ => rfl)
theorem idx36 (s : Fin 1) (r : Fin 262144) (j : Fin 128) : idx_main_v36 (ix3 s r j) = ix2 r j :=
  funext fun a => Fin.ext (by match a with | ⟨0, _⟩ => rfl | ⟨1, _⟩ => rfl)

section
variable (x0 x1 x2 : (⟨S262144x128, .f32⟩ : BufTy).Contents (Elt Ideal))
  (x3 x4 x5 x6 x7 x8 x9 x10 : (⟨S128x128, .f32⟩ : BufTy).Contents (Elt Ideal))

/-! ## The pre-activations -/

/-- The sum of the two matrix products, at row r and column n, is the pre-activation. -/
theorem v6_eq (r : Fin 262144) (n : Fin 512) :
    val_main_v6 (F := Ideal) x0 x1 x3 x4 x5 x6 x7 x8 x9 x10 (ix2 r n)
      = pre (R := 262144) x0 x1 (val_main_v2 (F := Ideal) x3 x5 x7 x9) (val_main_v4 (F := Ideal) x4 x6 x8 x10) r n := by
  rw [val_main_v6_apply, val_main_v3_apply, val_main_v5_apply]
  simp only [lidx3, ridx3, lidx5, ridx5, Ideal.addf_def]
  rfl

/-! ## The gates -/

/-- The cell state: the logistic of the forget gate's columns times the old cell state, plus the logistic of the
    input gate's columns times the hyperbolic tangent of the candidate's columns. -/
theorem v32_eq (r : Fin 262144) (j : Fin 128) :
    val_main_v32 (F := Ideal) x0 x1 x2 x3 x4 x5 x6 x7 x8 x9 x10 (ix2 r j)
      = cell (R := 262144) x0 x1 x2 (val_main_v2 (F := Ideal) x3 x5 x7 x9) (val_main_v4 (F := Ideal) x4 x6 x8 x10) r j := by
  simp only [val_main_v32_apply, val_main_v30_apply, val_main_v31_apply, val_main_v22_apply, val_main_v21_apply,
    val_main_cst_2_apply, val_main_v20_apply, val_main_v19_apply, val_main_cst_1_apply, val_main_v18_apply,
    val_main_v17_apply, val_main_v8_apply, val_main_v16_apply, val_main_v15_apply, val_main_cst_0_apply,
    val_main_v14_apply, val_main_v13_apply, val_main_cst_apply, val_main_v12_apply, val_main_v11_apply,
    val_main_v7_apply, val_main_v29_apply, val_main_v10_apply, idx7, idx8, idx10, v6_eq]
  rfl

/-- The hidden state: the logistic of the output gate's columns times the hyperbolic tangent of the cell state. -/
theorem v34_eq (r : Fin 262144) (j : Fin 128) :
    val_main_v34 (F := Ideal) x0 x1 x2 x3 x4 x5 x6 x7 x8 x9 x10 (ix2 r j)
      = hidden (R := 262144) x0 x1 x2 (val_main_v2 (F := Ideal) x3 x5 x7 x9) (val_main_v4 (F := Ideal) x4 x6 x8 x10) r j := by
  simp only [val_main_v34_apply, val_main_v33_apply, v32_eq, val_main_v28_apply, val_main_v27_apply,
    val_main_cst_4_apply, val_main_v26_apply, val_main_v25_apply, val_main_cst_3_apply, val_main_v24_apply,
    val_main_v23_apply, val_main_v9_apply, idx9, v6_eq]
  rfl

end

/-! ## The result -/

/-- The reference's result is the specification function of its argument arrays: plane 0 of the concatenation is
    the hidden state, plane 1 the cell state. -/
theorem ref_eq (x0 x1 x2 : (⟨S262144x128, .f32⟩ : BufTy).Contents (Elt Ideal)) (x3 x4 x5 x6 x7 x8 x9 x10 : (⟨S128x128, .f32⟩ : BufTy).Contents (Elt Ideal)) :
    val_main_v37 (F := Ideal) x0 x1 x2 x3 x4 x5 x6 x7 x8 x9 x10
      = Cert.Lstm.G (R := 262144) x0 x1 x2 (val_main_v2 (F := Ideal) x3 x5 x7 x9) (val_main_v4 (F := Ideal) x4 x6 x8 x10) := by
  funext i
  obtain ⟨s, r, j, rfl⟩ : ∃ (s : Fin 2) (r : Fin 262144) (j : Fin 128), i = ix3 s r j := ⟨i 0, i 1, i 2, eq_ix3 i⟩
  match s with
  | ⟨0, _⟩ =>
    refine Eq.trans ?_ (G_hidden (R := 262144) x0 x1 x2 (val_main_v2 (F := Ideal) x3 x5 x7 x9) (val_main_v4 (F := Ideal) x4 x6 x8 x10) r j).symm
    unfold val_main_v37
    refine (concatenate_pair_apply_left (t := S2x262144x128) (s₁ := S1x262144x128) (s₂ := S1x262144x128) 0 _ _ _
      (ix3 (0 : Fin 2) r j) rfl (ix3 (0 : Fin 1) r j) ?_).trans ?_
    · intro b; match b with
      | ⟨0, _⟩ => rfl
      | ⟨1, _⟩ => rfl
      | ⟨2, _⟩ => rfl
    · rw [val_main_v35_apply, idx35, v34_eq]
  | ⟨1, _⟩ =>
    refine Eq.trans ?_ (G_cell (R := 262144) x0 x1 x2 (val_main_v2 (F := Ideal) x3 x5 x7 x9) (val_main_v4 (F := Ideal) x4 x6 x8 x10) r j).symm
    unfold val_main_v37
    refine (concatenate_pair_apply_right (t := S2x262144x128) (s₁ := S1x262144x128) (s₂ := S1x262144x128) 0 _ _ _
      (ix3 (1 : Fin 2) r j) rfl rfl (ix3 (0 : Fin 1) r j) ?_ ?_).trans ?_
    · intro b hb; match b, hb with
      | ⟨0, _⟩, hb => exact absurd rfl hb
      | ⟨1, _⟩, _ => rfl
      | ⟨2, _⟩, _ => rfl
    · rfl
    · rw [val_main_v36_apply, idx36, v32_eq]

end Cert.ReferenceIdeal.RefValue

end
-- ==== Proof.lean ====
/-
  An LSTM cell, fused: the kernel against its reference, equal on the extended reals.

  Both programs first stack the four input-side gate matrices and the four hidden-side ones and transpose the two
  stacks.  The reference then forms the gates' pre-activations as TWO products summed, x·Wxᵀ + h·Whᵀ, and applies
  the logistic function in the form 1/(1 + e^{-v}).  The kernel stacks the two transposed stacks into one
  `[256, 512]` matrix and, on each block of 2048 rows, forms ONE product of the concatenation [x | h] with it — a
  sum over 256 indices that is the sum over the first 128 plus the sum over the last 128, that is, the reference's
  two products — and applies the logistic function in the form ½·(tanh(½·v) + 1), which is 1/(1 + e^{-v}) at every
  extended real (at ±∞ too).  The narrowing of the product's operands to bf16 is the identity on extended reals.
  From the gates both compute the new cell state f·c + i·g and the new hidden state o·tanh(f·c + i·g) with the
  same operations in the same order, and both return the hidden state stacked on the cell state.  No step needs the
  inputs finite: only commutativity and associativity of the sums and the one law of the logistic function are
  used, so the precondition is never opened.

  The frames: each kernel program is seven host operations and one pipelined region whose body loads its four
  input blocks whole and overwrites its output buffer with two stores that tile it, so every run terminates, faults
  nowhere and leaves the argument arrays as launched (Proof/LaunchBits.lean at the word level, Proof/LaunchIdeal.lean
  at the ideal instance); the reference is host operations only, and its frame is its run with the result dropped.
  Nothing was rewritten by the idealization, so there is nothing to preserve.
-/
import proofs.«159457_j13056700580135_2_alg».proof.Defs
import proofs.«159457_j13056700580135_2_alg».proof.Proof.Gen.Kernel
import proofs.«159457_j13056700580135_2_alg».proof.Proof.Gen.KernelIdeal
import proofs.«159457_j13056700580135_2_alg».proof.Proof.Gen.ReferenceIdeal
import proofs.«159457_j13056700580135_2_alg».proof.Proof.Gen.Pre_finite_inputs
import proofs.«159457_j13056700580135_2_alg».proof.Proof.LaunchBits
import proofs.«159457_j13056700580135_2_alg».proof.Proof.KernelValue
import proofs.«159457_j13056700580135_2_alg».proof.Proof.RefIsSpec

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Frm.frame m ρ

/-- So does the idealized one. -/
theorem frame_ideal : Cert.frame_KernelIdeal := fun m ρ _ => Cert.KernelIdeal.Frm.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel's result array ends at the specification of the
    arguments (the block-by-block reading of its run) and so does the reference's (its run read one operation at a
    time); the two transposed weight stacks are one term on both sides. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_eq]
  obtain ⟨a0, a1, a2, a3, a4, a5, a6, a7, a8, a9, a10⟩ := hagree c
  rw [a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
